-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x800000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S5000x64 : Shape := ⟨2, ![5000, 64]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 65
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S100000x64, .f32⟩
  | .hbm, ⟨13, _⟩ => ⟨S100000, .i32⟩
  | .hbm, ⟨14, _⟩ => ⟨S900000, .i32⟩
  | .hbm, ⟨15, _⟩ => ⟨S900000, .i32⟩
  | .hbm, ⟨16, _⟩ => ⟨S_, .f32⟩
  | .hbm, ⟨17, _⟩ => ⟨S900000, .f32⟩
  | .hbm, ⟨18, _⟩ => ⟨S_, .f32⟩
  | .hbm, ⟨19, _⟩ => ⟨S100000, .f32⟩
  | .hbm, ⟨20, _⟩ => ⟨S900000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S900000, .i32⟩
  | .hbm, ⟨25, _⟩ => ⟨S900000, .i1⟩
  | .hbm, ⟨26, _⟩ => ⟨S_, .i32⟩
  | .hbm, ⟨27, _⟩ => ⟨S900000, .i32⟩
  | .hbm, ⟨28, _⟩ => ⟨S900000, .i32⟩
  | .hbm, ⟨29, _⟩ => ⟨S900000, .i32⟩
  | .hbm, ⟨30, _⟩ => ⟨S900000x1, .i32⟩
  | .hbm, ⟨31, _⟩ => ⟨S900000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000x64, .f32⟩
  | .hbm, ⟨51, _⟩ => ⟨S900000x1, .f32⟩
  | .hbm, ⟨52, _⟩ => ⟨S900000x64, .f32⟩
  | .hbm, ⟨53, _⟩ => ⟨S900000x64, .f32⟩
  | .hbm, ⟨54, _⟩ => ⟨S_, .f32⟩
  | .hbm, ⟨55, _⟩ => ⟨S100000x64, .f32⟩
  | .hbm, ⟨56, _⟩ => ⟨S900000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩
abbrev S100000x1 : Shape := ⟨2, ![100000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S100000, .i32⟩
  | .hbm, ⟨13, _⟩ => ⟨S900000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S900000, .i32⟩
  | .hbm, ⟨24, _⟩ => ⟨S900000, .i1⟩
  | .hbm, ⟨25, _⟩ => ⟨S_, .i32⟩
  | .hbm, ⟨26, _⟩ => ⟨S900000, .i32⟩
  | .hbm, ⟨27, _⟩ => ⟨S900000, .i32⟩
  | .hbm, ⟨28, _⟩ => ⟨S900000, .i32⟩
  | .hbm, ⟨29, _⟩ => ⟨S900000x1, .i32⟩
  | .hbm, ⟨30, _⟩ => ⟨S900000, .f32⟩
  | .hbm, ⟨31, _⟩ => ⟨S_, .i32⟩
  | .hbm, ⟨32, _⟩ => ⟨S900000, .i32⟩
  | .hbm, ⟨33, _⟩ => ⟨S900000, .i1⟩
  | .hbm, ⟨34, _⟩ => ⟨S_, .i32⟩
  | .hbm, ⟨35, _⟩ => ⟨S900000, .i32⟩
  | .hbm, ⟨36, _⟩ => ⟨S900000, .i32⟩
  | .hbm, ⟨37, _⟩ => ⟨S900000, .i32⟩
  | .hbm, ⟨38, _⟩ => ⟨S900000x1, .i32⟩
  | .hbm, ⟨39, _⟩ => ⟨S900000, .f32⟩
  | .hbm, ⟨40, _⟩ => ⟨S900000, .f32⟩
  | .hbm, ⟨41, _⟩ => ⟨S100000x64, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000x64, .f32⟩
  | .hbm, ⟨51, _⟩ => ⟨S900000x1, .f32⟩
  | .hbm, ⟨52, _⟩ => ⟨S900000x64, .f32⟩
  | .hbm, ⟨53, _⟩ => ⟨S900000x64, .f32⟩
  | .hbm, ⟨54, _⟩ => ⟨S_, .f32⟩
  | .hbm, ⟨55, _⟩ => ⟨S100000x64, .f32⟩
  | .hbm, ⟨56, _⟩ => ⟨S900000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x1, .f32⟩
  | .hbm, ⟨80, _⟩ => ⟨S100000x1, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_cst : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x64_S64x64_S100000x64_1_0_0_1_n_n_wf : DotDims.WF S100000x64 S64x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KernelRun.lean ====
/-
  The idealized kernel's run with its result array named.

  @main is two pipelined regions among stretches of host operations. The run's buffer contents at the end are the
  last boundary's contents (every unscoped buffer at `W4`): each argument array is read back through the boundaries
  to its launch contents, and the result array `main_v47` — window 6 of the second region — is read at the same
  boundary and kept in the post. What that array holds is the business of the modules that follow; here it is
  only named.
-/
import proofs.«103091_j3324304687692_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the argument arrays as launched. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array's buffer at the last boundary holds what the second region's pipeline leaves in its
    output window. -/
theorem result_contents (c : Dev nD) :
    W4 m ρ c (Proc.devRef .tc main_v47) = (dat1 (V3 m ρ) c).arrAt 6 cfg1.N := W4_arr m ρ c 6

/-- The first region's result array, as the host operations after it find it. -/
theorem xw_contents (c : Dev nD) :
    W2 m ρ c (Proc.devRef .tc main_v4) = (dat0 (V1 m ρ) c).arrAt 2 cfg0.N := W2_arr m ρ c 2

end Cert.KernelIdeal.Result

end
-- ==== Proof.LayerSpec.lean ====
/-
  One graph-convolution layer with a normalised, rectified, gated read-out, as functions on the extended reals.

  For an array `X` of 100000 rows of 64 features and a 64 × 64 matrix `W`, `xw X W` is the product `X · W`,
  entry by entry a sum over the 64 columns of `X`.

  For one row `a` of 64 aggregated features, `mean a` and `var a` are its mean and its (biased) variance, each a
  sum over the row divided by 64. The read-out of the row, `gated a x g b`, normalises it —
  `(a k - mean a) · (var a + ε)^(-1/2)` —, scales it by `g`, shifts it by `b`, clips it below at zero and multiplies
  it by the input row `x`; `out` multiplies the rows so obtained by a second 64 × 64 matrix and adds a bias.

  The float literals (64, ε = the f32 nearest 1e-5, and the zero the clip compares with) are kept as the words the
  programs print: both sides of the comparison carry the same words, so they are never evaluated.
-/
import Idealize.ShloMosaic.PureOps.Ideal
import Idealize.ShloMosaic.Lib.ValueIdx

noncomputable section

open scoped BigOperators

namespace Cert.GcnLayer

open Idealize.ShloMosaic Idealize.ShloMosaic.ValueIdx

/-- The row length, 64, as the f32 word both programs divide by. -/
abbrev c64 : EReal := Ideal.ofBits .f32 0x42800000#32
/-- The variance's guard, the f32 word nearest 1e-5. -/
abbrev eps : EReal := Ideal.ofBits .f32 0x3727C5AC#32
/-- The zero word the clip compares with. -/
abbrev zero32 : EReal := Ideal.ofBits .f32 0x00000000#32

/-- The mean of a row. -/
def mean (a : Fin 64 → EReal) : EReal := Ideal.div (∑ j : Fin 64, a j) c64

/-- The biased variance of a row: the mean of the squared deviations. -/
def var (a : Fin 64 → EReal) : EReal := Ideal.div (∑ j : Fin 64, (a j - mean a) * (a j - mean a)) c64

/-- A row normalised, scaled by `g`, shifted by `b`, clipped below at zero, and gated by the input row `x`. -/
def gated (a x g b : Fin 64 → EReal) (k : Fin 64) : EReal :=
  max ((a k - mean a) * Ideal.rsqrt (var a + eps) * g k + b k) zero32 * x k

/-- The product `X · W` of the feature array with the first weight matrix. -/
def xw (X : (⟨2, ![100000, 64]⟩ : Shape).Idx → EReal) (W : (⟨2, ![64, 64]⟩ : Shape).Idx → EReal) :
    (⟨2, ![100000, 64]⟩ : Shape).Idx → EReal :=
  fun i => ∑ k : Fin 64, X (ix2 (i 0) k) * W (ix2 k (i 1))

theorem xw_apply (X : (⟨2, ![100000, 64]⟩ : Shape).Idx → EReal) (W : (⟨2, ![64, 64]⟩ : Shape).Idx → EReal)
    (r : Fin 100000) (q : Fin 64) : xw X W (ix2 r q) = ∑ k : Fin 64, X (ix2 r k) * W (ix2 k q) := rfl

/-- The layer's output: each aggregated row read out against its input row, times the second weight matrix, plus
    the bias. Entry `(r, q)` depends on the two arrays only through their rows `r`. -/
def out (A X : (⟨2, ![100000, 64]⟩ : Shape).Idx → EReal) (g b : Fin 64 → EReal)
    (W : (⟨2, ![64, 64]⟩ : Shape).Idx → EReal) (fb : Fin 64 → EReal) : (⟨2, ![100000, 64]⟩ : Shape).Idx → EReal :=
  fun i => (∑ k : Fin 64, gated (fun j => A (ix2 (i 0) j)) (fun j => X (ix2 (i 0) j)) g b k * W (ix2 k (i 1))) + fb (i 1)

theorem out_apply (A X : (⟨2, ![100000, 64]⟩ : Shape).Idx → EReal) (g b : Fin 64 → EReal)
    (W : (⟨2, ![64, 64]⟩ : Shape).Idx → EReal) (fb : Fin 64 → EReal) (r : Fin 100000) (q : Fin 64) :
    out A X g b W fb (ix2 r q)
      = (∑ k : Fin 64, gated (fun j => A (ix2 r j)) (fun j => X (ix2 r j)) g b k * W (ix2 k q)) + fb q := rfl

end Cert.GcnLayer

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«103091_j3324304687692_1_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.BlockValues.lean ====
/-
  What one grid point's body computes, read at an entry of its block, at the extended reals.

  Both kernel bodies work on a block of 5000 rows. A change of float format is the identity at the extended reals,
  and the matrix unit's product into the zero accumulator is the plain sum over the contracted axis, so:

  * the first body's stored block has, at `(p, q)`, the sum over `k` of `x (p, k) * w (k, q)` (`xw_block`);
  * the second body's stored block has, at `(p, q)`, the read-out `gated` of row `p` of the aggregated block against
    row `p` of the input block, multiplied by the second weight matrix, plus the bias row (`out_block`): the row's
    mean and variance are lane sums divided by 64 and kept as a column, the column broadcast back along the row.
-/
import proofs.«103091_j3324304687692_1_alg».proof.Proof.Gen.KernelIdeal.Skeleton
import proofs.«103091_j3324304687692_1_alg».proof.Proof.LayerSpec
import proofs.«103091_j3324304687692_1_alg».proof.Proof.LibRowReduceProducts
import proofs.«103091_j3324304687692_1_alg».proof.Proof.LibKeepdimsCols
import Idealize.ShloMosaic.Lib.ValueLayout
import Idealize.ShloMosaic.Lib.Pipeline.Value
import Idealize.ShloMosaic.PureOps.Ideal.Laws

noncomputable section

open scoped BigOperators

namespace Cert.KernelIdeal.BlockValues

open Idealize.ShloMosaic Idealize.ShloMosaic.ValueIdx Cert.KernelIdeal Cert.KernelIdeal.Gen Cert.GcnLayer

/-- The first body's block: the rows of the block times the weight matrix. -/
theorem xw_block (x : FVec Ideal S5000x64 .f32) (w : FVec Ideal S64x64 .f32) (p : Fin 5000) (q : Fin 64) :
    k0_pay1 (F := Ideal) x w (ix2 p q) = ∑ k : Fin 64, x (ix2 p k) * w (ix2 k q) := by
  unfold k0_pay1
  exact Cert.LibRowReduceProducts.matmulNN dot_S5000x64_S64x64_S5000x64_1_0_0_1_n_n rfl rfl rfl rfl rfl rfl none
    (truncf .bf16 x bitsLt_bf16_f32) (truncf .bf16 w bitsLt_bf16_f32) p q

/-- The lane sum of a block's row, kept as a column and divided by 64, read at `(p, u)`. -/
theorem rowMean_col (a : FVec Ideal S5000x64 .f32) (p : Fin 5000) (u : Fin 1) :
    divf (shapeCast S5000x1 (multiReduction .add [1] S5000 a 0x00000000#32 reduces_S5000x64_S5000 (.inl rfl) rfl)
        shapeCasts_S5000_S5000x1) (broadcast S5000x1 (Scalar.ofBits (F := Ideal) .f32 0x42800000#32)) (ix2 p u)
      = Ideal.div (∑ k : Fin 64, a (ix2 p k)) c64 := by
  refine (divf_apply _ _ _).trans ?_
  refine congrArg (fun z => Ideal.div z c64) ?_
  refine (Cert.LibKeepdimsCols.shapeCast_a_a1_apply _ shapeCasts_S5000_S5000x1 p u).trans ?_
  exact Cert.LibRowReduceProducts.rowSum_apply a reduces_S5000x64_S5000 (.inl rfl) rfl p

/-- The reciprocal square root of a vector is entry by entry the scalar one. -/
theorem rsqrt_apply {s : Shape} {φ : FTy} (v : FVec Ideal s φ) (i : s.Idx) : rsqrt v i = Ideal.rsqrt (v i) := rfl

/-- The second body's block: the read-out of each row, times the second weight matrix, plus the bias row. -/
theorem out_block (a x : FVec Ideal S5000x64 .f32) (g b : FVec Ideal S1x64 .f32) (w : FVec Ideal S64x64 .f32)
    (fb : FVec Ideal S1x64 .f32) (p : Fin 5000) (q : Fin 64) :
    k1_pay1 (F := Ideal) (k1_pay2 a g b x w) (k1_pay3 fb) (ix2 p q)
      = (∑ k : Fin 64, gated (fun j => a (ix2 p j)) (fun j => x (ix2 p j)) (fun j => g (ix2 (0 : Fin 1) j))
            (fun j => b (ix2 (0 : Fin 1) j)) k * w (ix2 k q)) + fb (ix2 (0 : Fin 1) q) := by
  unfold k1_pay1
  refine (addf_apply _ _ _).trans ?_
  have hbias : k1_pay3 (F := Ideal) fb (ix2 p q) = fb (ix2 (0 : Fin 1) q) := by
    unfold k1_pay3
    rw [shapeCast_self, shapeCast_self]
    exact broadcastTo_1b_ab_apply fb broadcasts_S1x64_S5000x64 p q
  rw [hbias]
  refine congrArg (· + fb (ix2 (0 : Fin 1) q)) ?_
  unfold k1_pay2
  rw [shapeCast_self a, shapeCast_self g, shapeCast_self g, shapeCast_self b, shapeCast_self b]
  refine (Cert.LibRowReduceProducts.matmulNN dot_S5000x64_S64x64_S5000x64_1_0_0_1_n_n rfl rfl rfl rfl rfl rfl none _ _ p q).trans ?_
  refine Finset.sum_congr rfl fun k _ => ?_
  refine congrArg (· * w (ix2 k q)) ?_
  -- the gated entry (p, k): the format change is the identity and the operations are pointwise; the mean and the
  -- variance are columns read back along the row, the scale and the shift rows read down the rows
  simp only [truncf_apply, mulf_apply, maximumf_apply, addf_apply, subf_apply, broadcast_apply, rsqrt_apply,
    Cert.LibKeepdimsCols.broadcastTo_a1_ab_apply, broadcastTo_1b_ab_apply]
  rw [rowMean_col a p 0, rowMean_col _ p 0]
  simp only [mulf_apply, subf_apply, Cert.LibKeepdimsCols.broadcastTo_a1_ab_apply]
  rw [rowMean_col a p 0]
  rfl

end Cert.KernelIdeal.BlockValues

end
-- ==== Proof.RegionOut.lean ====
/-
  The second region's result array is the layer's output `out`.

  The region's grid has 20 points; point `t` reads rows `5000 t … 5000 t + 4999` of the aggregated array and of the
  input features, the whole of the scale row, the shift row, the second weight matrix and the bias row, and writes
  back rows `5000 t … 5000 t + 4999` of the result. Entry `(p, q)` of the written block is the read-out of row
  `5000 t + p` of the aggregated array against the same row of the features, times the weight matrix, plus the
  bias: entry `(5000 t + p, q)` of `out`, which depends on the two arrays only through that row. The 20 blocks tile
  the 100000 rows, so after the last write-back the array holds `out`.

  Stated at a parameter `V`: the buffer contents when the region is entered.
-/
import proofs.«103091_j3324304687692_1_alg».proof.Proof.Gen.KernelIdeal.Frame
import proofs.«103091_j3324304687692_1_alg».proof.Proof.BlockValues
import Idealize.ShloMosaic.Lib.Pipeline.Value

set_option maxRecDepth 16384

noncomputable section

open scoped BigOperators

namespace Cert.KernelIdeal.RegionOut

open Idealize.ShloMosaic Idealize.ShloMosaic.TcCoe Idealize.ShloMosaic.ValueIdx Idealize.SL.Sem
open Idealize.ShloMosaic.Pipeline (Dat)
open Cert.KernelIdeal Cert.KernelIdeal.Gen Cert.GcnLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregated window, the feature window and the result window
    are at block row `t`, the four small operands at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer's output of the arrays the region finds: the scale, shift and bias rows read off their `1 × 64` arrays. -/
abbrev outOf (c : Dev nD) : S100000x64.Idx → EReal :=
  out (V c main_v43) (V c main_arg0) (fun j : Fin 64 => (V c main_v44 : S1x64.Idx → EReal) (ix2 (0 : Fin 1) j))
    (fun j : Fin 64 => (V c main_v45 : S1x64.Idx → EReal) (ix2 (0 : Fin 1) j)) (V c main_arg6)
    (fun j : Fin 64 => (V c main_v46 : S1x64.Idx → EReal) (ix2 (0 : Fin 1) j))

/-- One entry of the block written at a point whose two row blocks hold rows of `A` and `X` from row `r - p` on. -/
theorem point_entry (A X : S100000x64.Idx → EReal) (g b fb : FVec Ideal S1x64 .f32) (W : FVec Ideal S64x64 .f32)
    (a x : FVec Ideal S5000x64 .f32) (p : Fin 5000) (q : Fin 64) (r : Fin 100000)
    (ha : ∀ k : Fin 64, a (ix2 p k) = A (ix2 r k)) (hx : ∀ k : Fin 64, x (ix2 p k) = X (ix2 r k)) :
    k1_pay1 (F := Ideal) (k1_pay2 a g b x W) (k1_pay3 fb) (ix2 p q)
      = out A X (fun j => g (ix2 (0 : Fin 1) j)) (fun j => b (ix2 (0 : Fin 1) j)) W
          (fun j => fb (ix2 (0 : Fin 1) j)) (ix2 r q) := by
  rw [Cert.KernelIdeal.BlockValues.out_block, out_apply,
    show (fun j => a (ix2 p j)) = fun j => A (ix2 r j) from funext ha,
    show (fun j => x (ix2 p j)) = fun j => X (ix2 r j) from funext hx]

/-- What point `t` writes back is block `t` of the layer's output. -/
theorem flushed_eq (c : Dev nD) (t : Fin cfg1.N) :
    (dat1 V c).flushed 6 t = ((cfg1.win 6).blk t).view.read (Elt Ideal) (outOf V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S1x64) hz, View.ld_unit_zero (S := S64x64) hz]
  obtain ⟨e0, e1, e2, e3, e4, e5, e6, e7, e8, e9, e10, e11, e12, e13⟩ := idx_facts t
  have hN : t.val < 20 := Nat.lt_of_lt_of_eq t.isLt (show cfg1.N = 20 from N_1)
  funext y
  have hy0 : (y 0).val < 5000 := (y 0).isLt
  have hy1 : (y 1).val < 64 := (y 1).isLt
  -- each small operand's one block is its whole array
  have hg : (iblk1 V c 2 t : FVec Ideal S1x64 .f32) = V c main_v44 := by
    funext z
    show V c main_v44 (((cfg1.win 2).blk t).view.emb z) = V c main_v44 z
    refine congrArg _ (funext fun a => Fin.ext ?_)
    match a with
    | ⟨0, _⟩ => show win1_2.index t (0 : Fin 2) * 1 + 1 * (z 0).val = (z 0).val; omega
    | ⟨1, _⟩ => show win1_2.index t (1 : Fin 2) * 64 + 1 * (z 1).val = (z 1).val; omega
  have hb : (iblk1 V c 3 t : FVec Ideal S1x64 .f32) = V c main_v45 := by
    funext z
    show V c main_v45 (((cfg1.win 3).blk t).view.emb z) = V c main_v45 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 64 + 1 * (z 1).val = (z 1).val; omega
  have hw : (iblk1 V c 4 t : FVec Ideal S64x64 .f32) = V c main_arg6 := by
    funext z
    show V c main_arg6 (((cfg1.win 4).blk t).view.emb z) = V c main_arg6 z
    refine congrArg _ (funext fun a => Fin.ext ?_)
    match a with
    | ⟨0, _⟩ => show win1_4.index t (0 : Fin 2) * 64 + 1 * (z 0).val = (z 0).val; omega
    | ⟨1, _⟩ => show win1_4.index t (1 : Fin 2) * 64 + 1 * (z 1).val = (z 1).val; omega
  have hfb : (iblk1 V c 5 t : FVec Ideal S1x64 .f32) = V c main_v46 := by
    funext z
    show V c main_v46 (((cfg1.win 5).blk t).view.emb z) = V c main_v46 z
    refine congrArg _ (funext fun a => Fin.ext ?_)
    match a with
    | ⟨0, _⟩ => show win1_5.index t (0 : Fin 2) * 1 + 1 * (z 0).val = (z 0).val; omega
    | ⟨1, _⟩ => show win1_5.index t (1 : Fin 2) * 64 + 1 * (z 1).val = (z 1).val; omega
  -- the entry's coordinates in the block, and where the block puts it in the array
  have hyy : (y : S5000x64.Idx) = ix2 (⟨(y 0).val, hy0⟩ : Fin 5000) (⟨(y 1).val, hy1⟩ : Fin 64) :=
    funext fun a => Fin.ext (by match a with | ⟨0, _⟩ => rfl | ⟨1, _⟩ => rfl)
  have hemb : ((cfg1.win 6).blk t).view.emb y
      = ix2 (⟨5000 * t.val + (y 0).val, by omega⟩ : Fin 100000) (⟨(y 1).val, hy1⟩ : Fin 64) :=
    funext fun a => Fin.ext (by
      match a with
      | ⟨0, _⟩ => show win1_6.index t (0 : Fin 2) * 5000 + 1 * (y 0).val = 5000 * t.val + (y 0).val; omega
      | ⟨1, _⟩ => show win1_6.index t (1 : Fin 2) * 64 + 1 * (y 1).val = (y 1).val; omega)
  show k1_pay1 (F := Ideal) (k1_pay2 (iblk1 V c 0 t) (iblk1 V c 2 t) (iblk1 V c 3 t) (iblk1 V c 1 t) (iblk1 V c 4 t))
      (k1_pay3 (iblk1 V c 5 t)) y = outOf V c (((cfg1.win 6).blk t).view.emb y)
  rw [hg, hb, hw, hfb]
  refine (congrArg (k1_pay1 (F := Ideal) (k1_pay2 (iblk1 V c 0 t) (V c main_v44) (V c main_v45) (iblk1 V c 1 t) (V c main_arg6))
    (k1_pay3 (V c main_v46))) hyy).trans ?_
  refine Eq.trans ?_ (congrArg (outOf V c) hemb.symm)
  refine point_entry (V c main_v43) (V c main_arg0) (V c main_v44) (V c main_v45) (V c main_v46) (V c main_arg6)
    (iblk1 V c 0 t) (iblk1 V c 1 t) _ _ _ (fun k => ?_) (fun k => ?_)
  · -- row p of the aggregated block is row 5000 t + p of the array
    show V c main_v43 (((cfg1.win 0).blk t).view.emb (ix2 (⟨(y 0).val, hy0⟩ : Fin 5000) k)) = _
    refine congrArg _ (funext fun a => Fin.ext ?_)
    match a with
    | ⟨0, _⟩ => show win1_0.index t (0 : Fin 2) * 5000 + 1 * (y 0).val = 5000 * t.val + (y 0).val; omega
    | ⟨1, _⟩ => show win1_0.index t (1 : Fin 2) * 64 + 1 * k.val = k.val; omega
  · -- and the same of the feature block
    show V c main_arg0 (((cfg1.win 1).blk t).view.emb (ix2 (⟨(y 0).val, hy0⟩ : Fin 5000) k)) = _
    refine congrArg _ (funext fun a => Fin.ext ?_)
    match a with
    | ⟨0, _⟩ => show win1_1.index t (0 : Fin 2) * 5000 + 1 * (y 0).val = 5000 * t.val + (y 0).val; omega
    | ⟨1, _⟩ => show win1_1.index t (1 : Fin 2) * 64 + 1 * k.val = k.val; omega

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v47).slice (win1_6.rect t)).set ↔ _
  rw [View.set_slice_whole, Rect.mem_set_unit]
  exact Iff.rfl

/-- Every row of the result is in the block of the point `row / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 5000, Nat.lt_of_lt_of_eq (by omega) (show 20 = cfg1.N from N_1.symm)⟩
  obtain ⟨-, -, -, -, -, -, -, -, -, -, -, -, e12, e13⟩ := idx_facts t
  have e12' : win1_6.index t (0 : Fin 2) = (i 0).val / 5000 := e12
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- The result array after the region: the layer's output of the arrays the region finds. -/
theorem final (c : Dev nD) : (dat1 V c).arrAt 6 cfg1.N = outOf V c :=
  (dat1 V c).arrAt_eq_of_cover 6 (outOf V c) (fun t _ => flushed_eq V c t) cover

end Cert.KernelIdeal.RegionOut

end
-- ==== Proof.RegionXW.lean ====
/-
  The first region's result array is the product `X · W`.

  The region's grid has 20 points; point `t` reads rows `5000 t … 5000 t + 4999` of the feature array and the whole
  weight matrix, and writes back rows `5000 t … 5000 t + 4999` of the result. Entry `(p, q)` of the block written at
  point `t` is the sum over `k` of `X (5000 t + p, k) * W (k, q)` — entry `(5000 t + p, q)` of `X · W`, which depends on
  `X` only through that row. The 20 blocks tile the 100000 rows (row `r` is in block `r / 5000`), so after the last
  write-back the array holds `X · W`.

  Stated at a parameter `V`: the buffer contents when the region is entered.
-/
import proofs.«103091_j3324304687692_1_alg».proof.Proof.Gen.KernelIdeal.Frame
import proofs.«103091_j3324304687692_1_alg».proof.Proof.BlockValues
import Idealize.ShloMosaic.Lib.Pipeline.Value

set_option maxRecDepth 16384

noncomputable section

open scoped BigOperators

namespace Cert.KernelIdeal.RegionXW

open Idealize.ShloMosaic Idealize.ShloMosaic.TcCoe Idealize.ShloMosaic.ValueIdx Idealize.SL.Sem
open Idealize.ShloMosaic.Pipeline (Dat)
open Cert.KernelIdeal Cert.KernelIdeal.Gen Cert.GcnLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature window and the result window are at block row `t`,
    the weight window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of the block written at a point whose feature block holds rows of `X` from row `r - p` on. -/
theorem point_entry (X : S100000x64.Idx → EReal) (W : S64x64.Idx → EReal) (x : FVec Ideal S5000x64 .f32)
    (p : Fin 5000) (q : Fin 64) (r : Fin 100000) (hx : ∀ k : Fin 64, x (ix2 p k) = X (ix2 r k)) :
    k0_pay1 (F := Ideal) x W (ix2 p q) = xw X W (ix2 r q) := by
  rw [Cert.KernelIdeal.BlockValues.xw_block, xw_apply]
  exact Finset.sum_congr rfl fun k _ => congrArg (· * W (ix2 k q)) (hx k)

/-- What point `t` writes back is block `t` of `X · W`. -/
theorem flushed_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  have hN : t.val < 20 := Nat.lt_of_lt_of_eq t.isLt (show cfg0.N = 20 from N_0)
  funext y
  have hy0 : (y 0).val < 5000 := (y 0).isLt
  have hy1 : (y 1).val < 64 := (y 1).isLt
  -- the weight window's one block is the whole matrix
  have hw : (iblk0 V c 1 t : FVec Ideal S64x64 .f32) = V c main_arg2 := by
    funext z
    show V c main_arg2 (((cfg0.win 1).blk t).view.emb z) = V c main_arg2 z
    refine congrArg _ (funext fun a => Fin.ext ?_)
    match a with
    | ⟨0, _⟩ => show win0_1.index t (0 : Fin 2) * 64 + 1 * (z 0).val = (z 0).val; omega
    | ⟨1, _⟩ => show win0_1.index t (1 : Fin 2) * 64 + 1 * (z 1).val = (z 1).val; omega
  -- the entry's coordinates in the block, and where the block puts it in the array
  have hyy : (y : S5000x64.Idx) = ix2 (⟨(y 0).val, hy0⟩ : Fin 5000) (⟨(y 1).val, hy1⟩ : Fin 64) :=
    funext fun a => Fin.ext (by match a with | ⟨0, _⟩ => rfl | ⟨1, _⟩ => rfl)
  have hemb : ((cfg0.win 2).blk t).view.emb y
      = ix2 (⟨5000 * t.val + (y 0).val, by omega⟩ : Fin 100000) (⟨(y 1).val, hy1⟩ : Fin 64) :=
    funext fun a => Fin.ext (by
      match a with
      | ⟨0, _⟩ => show win0_2.index t (0 : Fin 2) * 5000 + 1 * (y 0).val = 5000 * t.val + (y 0).val; omega
      | ⟨1, _⟩ => show win0_2.index t (1 : Fin 2) * 64 + 1 * (y 1).val = (y 1).val; omega)
  show k0_pay1 (F := Ideal) (iblk0 V c 0 t) (iblk0 V c 1 t) y
    = xw (V c main_arg0) (V c main_arg2) (((cfg0.win 2).blk t).view.emb y)
  refine (congrArg (fun z => k0_pay1 (F := Ideal) (iblk0 V c 0 t) z y) hw).trans ?_
  refine (congrArg (k0_pay1 (F := Ideal) (iblk0 V c 0 t) (V c main_arg2)) hyy).trans ?_
  refine Eq.trans ?_ (congrArg (xw (V c main_arg0) (V c main_arg2)) hemb.symm)
  refine point_entry (V c main_arg0) (V c main_arg2) (iblk0 V c 0 t) _ _ _ fun k => ?_
  -- row p of the feature block is row 5000 t + p of the array
  show V c main_arg0 (((cfg0.win 0).blk t).view.emb (ix2 (⟨(y 0).val, hy0⟩ : Fin 5000) k)) = _
  refine congrArg _ (funext fun a => Fin.ext ?_)
  match a with
  | ⟨0, _⟩ => show win0_0.index t (0 : Fin 2) * 5000 + 1 * (y 0).val = 5000 * t.val + (y 0).val; omega
  | ⟨1, _⟩ => show win0_0.index t (1 : Fin 2) * 64 + 1 * k.val = k.val; omega

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v4).slice (win0_2.rect t)).set ↔ _
  rw [View.set_slice_whole, Rect.mem_set_unit]
  exact Iff.rfl

/-- Every row of the result is in the block of the point `row / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, Nat.lt_of_lt_of_eq (by omega) (show 20 = cfg0.N from N_0.symm)⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The result array after the region: `X · W` of the arrays the region finds. -/
theorem final (c : Dev nD) : (dat0 V c).arrAt 2 cfg0.N = xw (V c main_arg0) (V c main_arg2) :=
  (dat0 V c).arrAt_eq_of_cover 2 (xw (V c main_arg0) (V c main_arg2)) (fun t _ => flushed_eq V c t) cover

end Cert.KernelIdeal.RegionXW

end
-- ==== Proof.HostSide.lean ====
/-
  What the kernel program's host operations leave in the buffers its two regions read.

  Before the first region the host only slices the edge list into its source row and its destination row; between
  the regions it aggregates the first region's result along the edges (with a self loop per node, each message
  weighted by the two end nodes' inverse square-root degrees), adds the bias, and views the scale, the shift and the
  second bias as `1 × 64` arrays. No host operation writes an argument array. So:

  * the first region finds the feature array and the first weight matrix as launched, and leaves `X · W`;
  * the second region finds the input features and the second weight matrix as launched, and the three rows as
    the `1 × 64` views of the arguments;
  * the buffers the aggregation reads (the two halves of the edge list, the first region's result, the bias) hold
    the edge list's slices, `X · W` and the bias as launched.
-/
import proofs.«103091_j3324304687692_1_alg».proof.Proof.Gen.KernelIdeal.Frame
import proofs.«103091_j3324304687692_1_alg».proof.Proof.RegionXW
import Idealize.ShloMosaic.Lib.StableHlo.Run
import Idealize.ShloMosaic.Lib.ValueLayout

set_option maxRecDepth 16384

noncomputable section

namespace Cert.KernelIdeal.HostSide

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.GcnLayer

variable (m : (ℓ : Loc nD τ sig) → Buf (Elt Ideal) ℓ) (ρ : Dev nD → PrngReg)

/-! ## The first region's entry and exit -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

/-- The first region leaves the product of the features with the first weight matrix. -/
theorem W2_xw (c : Dev nD) :
    W2 m ρ c (Proc.devRef .tc main_v4) = xw (m ((c : Thread nD τ).loc main_arg0)) (m ((c : Thread nD τ).loc main_arg2)) := by
  refine (W2_arr m ρ c 2).trans ((Cert.KernelIdeal.RegionXW.final (V1 m ρ) c).trans ?_)
  rw [V1_arg0, V1_arg2]

/-! ## What the host operations between the regions read -/

/-- The source row of the edge list. -/
theorem W2_src (c : Dev nD) :
    W2 m ρ c (Proc.devRef .tc main_v1)
      = shapeCast S800000 (extractStridedSlice S1x800000 ![0, 0] (m ((c : Thread nD τ).loc main_arg1))
          slices_S2x800000_S1x800000_0_0) shapeCasts_S1x800000_S800000 := by
  refine (W2_of_ne m ρ c main_v1 (by decide)).trans ?_
  show StableHlo.after hostOps0 (W0 m ρ c) (Proc.devRef .tc main_v1) = _
  after_results
  rfl

/-- The destination row of the edge list. -/
theorem W2_dst (c : Dev nD) :
    W2 m ρ c (Proc.devRef .tc main_v3)
      = shapeCast S800000 (extractStridedSlice S1x800000 ![1, 0] (m ((c : Thread nD τ).loc main_arg1))
          slices_S2x800000_S1x800000_1_0) shapeCasts_S1x800000_S800000 := by
  refine (W2_of_ne m ρ c main_v3 (by decide)).trans ?_
  show StableHlo.after hostOps0 (W0 m ρ c) (Proc.devRef .tc main_v3) = _
  after_results
  rfl

theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## The second region's entry -/

/-- The input features, as launched: the second region reads them through a window and no host operation writes them. -/
theorem V3_arg0 (c : Dev nD) : V3 m ρ c main_arg0 = m ((c : Thread nD τ).loc main_arg0) :=
  ((W4_arr m ρ c 1).trans (((dat1 (V3 m ρ) c).arrAt_in 1 rfl _).trans (A_eq1 (V3 m ρ) c 1))).symm.trans
    (W4_main_arg0 m ρ c)

/-- The second weight matrix, as launched. -/
theorem V3_arg6 (c : Dev nD) : V3 m ρ c main_arg6 = m ((c : Thread nD τ).loc main_arg6) :=
  ((W4_arr m ρ c 4).trans (((dat1 (V3 m ρ) c).arrAt_in 4 rfl _).trans (A_eq1 (V3 m ρ) c 4))).symm.trans
    (W4_main_arg6 m ρ c)

/-- The scale row: entry `(0, j)` of the `1 × 64` view is entry `j` of the argument. -/
theorem V3_scale (c : Dev nD) (j : Fin 64) :
    (V3 m ρ c main_v44 : S1x64.Idx → EReal) (ix2 (0 : Fin 1) j) = (m ((c : Thread nD τ).loc main_arg4) : S64.Idx → EReal) (ix1 j) := by
  have e : (V3 m ρ c main_v44 : S1x64.Idx → EReal)
      = shapeCast S1x64 (m ((c : Thread nD τ).loc main_arg4) : S64.Idx → EReal) shapeCasts_S64_S1x64 := by
    show StableHlo.after hostOps1 (W2 m ρ c) (Proc.devRef .tc main_v44) = _
    after_results_simp
    rw [W2_arg4]
    rfl
  rw [e]
  exact shapeCast_a_1a_apply _ shapeCasts_S64_S1x64 0 j

/-- The shift row. -/
theorem V3_shift (c : Dev nD) (j : Fin 64) :
    (V3 m ρ c main_v45 : S1x64.Idx → EReal) (ix2 (0 : Fin 1) j) = (m ((c : Thread nD τ).loc main_arg5) : S64.Idx → EReal) (ix1 j) := by
  have e : (V3 m ρ c main_v45 : S1x64.Idx → EReal)
      = shapeCast S1x64 (m ((c : Thread nD τ).loc main_arg5) : S64.Idx → EReal) shapeCasts_S64_S1x64 := by
    show StableHlo.after hostOps1 (W2 m ρ c) (Proc.devRef .tc main_v45) = _
    after_results_simp
    rw [W2_arg5]
    rfl
  rw [e]
  exact shapeCast_a_1a_apply _ shapeCasts_S64_S1x64 0 j

/-- The second bias row. -/
theorem V3_bias (c : Dev nD) (j : Fin 64) :
    (V3 m ρ c main_v46 : S1x64.Idx → EReal) (ix2 (0 : Fin 1) j) = (m ((c : Thread nD τ).loc main_arg7) : S64.Idx → EReal) (ix1 j) := by
  have e : (V3 m ρ c main_v46 : S1x64.Idx → EReal)
      = shapeCast S1x64 (m ((c : Thread nD τ).loc main_arg7) : S64.Idx → EReal) shapeCasts_S64_S1x64 := by
    show StableHlo.after hostOps1 (W2 m ρ c) (Proc.devRef .tc main_v46) = _
    after_results_simp
    rw [W2_arg7]
    rfl
  rw [e]
  exact shapeCast_a_1a_apply _ shapeCasts_S64_S1x64 0 j

end Cert.KernelIdeal.HostSide

end
-- ==== Proof.RefTail.lean ====
/-
  The reference's read-out is the layer's output `out` of its own aggregated array.

  After the aggregation the reference normalises every row (two row sums divided by 64, kept as columns and
  broadcast back), scales, shifts, clips at zero, gates by the input and applies the second weight matrix and the
  bias. Read at an entry, operation by operation: the row's mean (`mean_col`), a deviation from it (`dev_entry`),
  the row's variance (`var_col`), the normalised entry (`norm_entry`), the gated entry (`gated_entry`) and the
  output entry (`readout`). The aggregated array is carried as it stands and never opened.
-/
import proofs.«103091_j3324304687692_1_alg».proof.Proof.Gen.ReferenceIdeal.Read
import proofs.«103091_j3324304687692_1_alg».proof.Proof.LayerSpec

noncomputable section

open scoped BigOperators

namespace Cert.ReferenceIdeal.Tail

open Idealize.ShloMosaic Idealize.ShloMosaic.ValueIdx Cert.ReferenceIdeal Cert.ReferenceIdeal.Read Cert.GcnLayer

/-- Two indices of a two-axis array with the same coordinates are one index. -/
theorem idx2_ext {n0 n1 : ℕ} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- The same for a one-axis array. -/
theorem idx1_ext {n0 : ℕ} (i j : (⟨1, ![n0]⟩ : Shape).Idx) (h0 : (i 0).val = (j 0).val) : i = j :=
  funext fun a => Fin.ext (by match a with | ⟨0, _⟩ => exact h0)

variable (x0 : (⟨S100000x64, .f32⟩ : BufTy).Contents (Elt Ideal)) (x1 : (⟨S2x800000, .i32⟩ : BufTy).Contents (Elt Ideal))
  (x2 : (⟨S64x64, .f32⟩ : BufTy).Contents (Elt Ideal)) (x3 x4 x5 : (⟨S64, .f32⟩ : BufTy).Contents (Elt Ideal))
  (x6 : (⟨S64x64, .f32⟩ : BufTy).Contents (Elt Ideal)) (x7 : (⟨S64, .f32⟩ : BufTy).Contents (Elt Ideal))

/-- The reference's first product is `X · W`: its `dot_general` contracts the columns of `X` with the rows of `W`. -/
theorem product : val_main_v27 (F := Ideal) x0 x2 = xw x0 x2 := by
  funext i
  obtain ⟨r, q, rfl⟩ : ∃ (r : Fin 100000) (q : Fin 64), i = ix2 r q := ⟨i 0, i 1, eq_ix2 i⟩
  rw [val_main_v27_apply, xw_apply]
  refine Finset.sum_congr rfl fun k _ => ?_
  rw [show lidx_main_v27 (ix2 r q) k = ix2 r k from idx2_ext _ _ rfl rfl,
    show ridx_main_v27 (ix2 r q) k = ix2 k q from idx2_ext _ _ rfl rfl]

/-- Row `r` of the reference's aggregated array. -/
abbrev aggRow (r : Fin 100000) : Fin 64 → EReal := fun j => val_main_v43 (F := Ideal) x0 x1 x2 x3 (ix2 r j)

/-- The column of row means, at `(r, u)`: the row's sum from zero, divided by 64. -/
theorem mean_col (r : Fin 100000) (u : Fin 1) :
    val_main_v47 (F := Ideal) x0 x1 x2 x3 (ix2 r u) = mean (aggRow x0 x1 x2 x3 r) := by
  rw [val_main_v47_apply, val_main_v45_apply, val_main_v44_apply, val_main_v46_apply, val_main_cst_8_apply,
    val_main_cst_7_apply]
  show Ideal.div (Ideal.ofBits .f32 0x00000000#32 + _) c64 = _
  rw [Ideal.ofBits_zero_f32, zero_add]
  refine congrArg (fun z => Ideal.div z c64) (Finset.sum_congr rfl fun k _ => ?_)
  exact congrArg (val_main_v43 (F := Ideal) x0 x1 x2 x3) (idx2_ext _ _ rfl rfl)

/-- A deviation from the row's mean. -/
theorem dev_entry (r : Fin 100000) (k : Fin 64) :
    val_main_v49 (F := Ideal) x0 x1 x2 x3 (ix2 r k)
      = aggRow x0 x1 x2 x3 r k - mean (aggRow x0 x1 x2 x3 r) := by
  rw [val_main_v49_apply, val_main_v48_apply,
    show idx_main_v48 (ix2 r k) = ix2 r (0 : Fin 1) from idx2_ext _ _ rfl rfl, mean_col]
  rfl

/-- The same deviation, as the reference computes it a second time for the normalised entry. -/
theorem dev_entry' (r : Fin 100000) (k : Fin 64) :
    val_main_v56 (F := Ideal) x0 x1 x2 x3 (ix2 r k)
      = aggRow x0 x1 x2 x3 r k - mean (aggRow x0 x1 x2 x3 r) := by
  rw [val_main_v56_apply, val_main_v55_apply,
    show idx_main_v55 (ix2 r k) = ix2 r (0 : Fin 1) from idx2_ext _ _ rfl rfl, mean_col]
  rfl

/-- The column of row variances, at `(r, u)`: the sum of the squared deviations from zero, divided by 64. -/
theorem var_col (r : Fin 100000) (u : Fin 1) :
    val_main_v54 (F := Ideal) x0 x1 x2 x3 (ix2 r u) = var (aggRow x0 x1 x2 x3 r) := by
  rw [val_main_v54_apply, val_main_v52_apply, val_main_v51_apply, val_main_v53_apply, val_main_cst_10_apply,
    val_main_cst_9_apply]
  show Ideal.div (Ideal.ofBits .f32 0x00000000#32 + _) c64 = _
  rw [Ideal.ofBits_zero_f32, zero_add]
  refine congrArg (fun z => Ideal.div z c64) (Finset.sum_congr rfl fun k _ => ?_)
  rw [show idx_main_v51 (idx_main_v52 (ix2 r u)) k = ix2 r k from idx2_ext _ _ rfl rfl, val_main_v50_apply, dev_entry]
  rfl

/-- The normalised entry: the deviation times the reciprocal square root of the guarded variance. -/
theorem norm_entry (r : Fin 100000) (k : Fin 64) :
    val_main_v61 (F := Ideal) x0 x1 x2 x3 (ix2 r k)
      = (aggRow x0 x1 x2 x3 r k - mean (aggRow x0 x1 x2 x3 r)) * Ideal.rsqrt (var (aggRow x0 x1 x2 x3 r) + eps) := by
  rw [val_main_v61_apply, dev_entry', val_main_v60_apply,
    show idx_main_v60 (ix2 r k) = ix2 r (0 : Fin 1) from idx2_ext _ _ rfl rfl,
    val_main_v59_apply, val_main_v58_apply, var_col, val_main_v57_apply, val_main_cst_11_apply]
  rfl

/-- The gated entry: scaled, shifted, clipped below at zero, times the input. -/
theorem gated_entry (r : Fin 100000) (k : Fin 64) :
    val_main_v69 (F := Ideal) x0 x1 x2 x3 x4 x5 (ix2 r k)
      = gated (aggRow x0 x1 x2 x3 r) (fun j => x0 (ix2 r j)) (fun j => x4 (ix1 j)) (fun j => x5 (ix1 j)) k := by
  rw [val_main_v69_apply, val_main_v68_apply, val_main_v67_apply, val_main_v64_apply, norm_entry,
    val_main_v63_apply, val_main_v62_apply,
    show idx_main_v62 (idx_main_v63 (ix2 r k)) = ix1 k from idx1_ext _ _ rfl,
    val_main_v66_apply, val_main_v65_apply,
    show idx_main_v65 (idx_main_v66 (ix2 r k)) = ix1 k from idx1_ext _ _ rfl,
    val_main_call0_v0_apply, val_main_call0_cst_apply]
  rfl

/-- The reference's result is the layer's output of its aggregated array. -/
theorem readout :
    val_main_v73 (F := Ideal) x0 x1 x2 x3 x4 x5 x6 x7
      = out (val_main_v43 (F := Ideal) x0 x1 x2 x3) x0 (fun j => x4 (ix1 j)) (fun j => x5 (ix1 j)) x6 (fun j => x7 (ix1 j)) := by
  funext i
  obtain ⟨r, q, rfl⟩ : ∃ (r : Fin 100000) (q : Fin 64), i = ix2 r q := ⟨i 0, i 1, eq_ix2 i⟩
  rw [out_apply, val_main_v73_apply, val_main_v70_apply, val_main_v72_apply, val_main_v71_apply,
    show idx_main_v71 (idx_main_v72 (ix2 r q)) = ix1 q from idx1_ext _ _ rfl]
  refine congrArg (· + x7 (ix1 q)) (Finset.sum_congr rfl fun k _ => ?_)
  rw [show lidx_main_v70 (ix2 r q) k = ix2 r k from idx2_ext _ _ rfl rfl,
    show ridx_main_v70 (ix2 r q) k = ix2 k q from idx2_ext _ _ rfl rfl, gated_entry]

end Cert.ReferenceIdeal.Tail

end
-- ==== Proof.Aggregate.lean ====
/-
  The two programs aggregate the same array.

  Between its two regions the kernel program applies to the first region's result exactly the host operations the
  reference applies to its own product: the edge list's two rows extended by a self loop per node, the degrees by a
  scatter-add of ones, their inverse square roots gathered at both ends of every edge, the product's rows gathered
  at the sources, weighted, scatter-added at the destinations, plus the bias. The first region's result is `X · W`
  and so is the reference's product, so the two aggregated arrays are one array. The chain of host operations is
  compared as it stands — the same operations on equal operands — and never opened.
-/
import proofs.«103091_j3324304687692_1_alg».proof.Proof.HostSide
import proofs.«103091_j3324304687692_1_alg».proof.Proof.RefTail

set_option maxRecDepth 16384

noncomputable section

namespace Cert.Proof.Aggregate

open Idealize.ShloMosaic Idealize.ShloMosaic.TcCoe Idealize.ShloMosaic.ValueIdx Idealize.SL.Sem Idealize.ShloMosaic.StableHlo
open Cert.KernelIdeal Cert.KernelIdeal.Gen Cert.GcnLayer
open Cert.ReferenceIdeal.Read (val_main_v43 val_main_v42 val_main_v41 val_main_v40 val_main_v39 val_main_v38 val_main_cst_6 val_main_v37 val_main_v36 val_main_v35 val_main_v34 val_main_v33 val_main_v32 val_main_v31 val_main_v30 val_main_c_5 val_main_v29 val_main_v28 val_main_c_4 val_main_v26 val_main_v25 val_main_v24 val_main_v23 val_main_v22 val_main_v21 val_main_c_3 val_main_v20 val_main_v19 val_main_c_2 val_main_v18 val_main_v17 val_main_v16 val_main_v15 val_main_v14 val_main_c_1 val_main_v13 val_main_v12 val_main_c val_main_v11 val_main_v10 val_main_v9 val_main_v8 val_main_cst_0 val_main_v7 val_main_cst val_main_v6 val_main_v5 val_main_v4 val_main_v3 val_main_v2 val_main_v1 val_main_v0 val_main_v27)

variable (m : (ℓ : Loc nD τ sig) → Buf (Elt Ideal) ℓ) (ρ : Dev nD → PrngReg)

set_option maxHeartbeats 4000000 in
/-- The array the second region normalises is the reference's aggregated array of the same arguments. -/
theorem agg_eq (c : Dev nD) :
    (V3 m ρ c main_v43 : S100000x64.Idx → EReal)
      = val_main_v43 (F := Ideal) (m ((c : Thread nD τ).loc main_arg0)) (m ((c : Thread nD τ).loc main_arg1))
          (m ((c : Thread nD τ).loc main_arg2)) (m ((c : Thread nD τ).loc main_arg3)) := by
  show StableHlo.after hostOps1 (W2 m ρ c) (Proc.devRef .tc main_v43) = _
  after_results_simp
  repeat (first
    | rw [nullary_result] | rw [binary_result]
    | (rw [nullary_result_ne]; rotate_left; decide)
    | (rw [binary_result_ne]; rotate_left; decide))
  rw [Cert.KernelIdeal.HostSide.W2_xw, Cert.KernelIdeal.HostSide.W2_src, Cert.KernelIdeal.HostSide.W2_dst,
    Cert.KernelIdeal.HostSide.W2_arg3]
  simp only [val_main_v43, val_main_v42, val_main_v41, val_main_v40, val_main_v39, val_main_v38, val_main_cst_6, val_main_v37, val_main_v36, val_main_v35, val_main_v34, val_main_v33, val_main_v32, val_main_v31, val_main_v30, val_main_c_5, val_main_v29, val_main_v28, val_main_c_4, val_main_v26, val_main_v25, val_main_v24, val_main_v23, val_main_v22, val_main_v21, val_main_c_3, val_main_v20, val_main_v19, val_main_c_2, val_main_v18, val_main_v17, val_main_v16, val_main_v15, val_main_v14, val_main_c_1, val_main_v13, val_main_v12, val_main_c, val_main_v11, val_main_v10, val_main_v9, val_main_v8, val_main_cst_0, val_main_v7, val_main_cst, val_main_v6, val_main_v5, val_main_v4, val_main_v3, val_main_v2, val_main_v1, val_main_v0]
  rw [Cert.ReferenceIdeal.Tail.product]
  rfl

end Cert.Proof.Aggregate

end
-- ==== Proof.lean ====
/-
  The certificate: a graph-convolution layer, LayerNorm, ReLU, a gate by the input and a linear read-out, computed by
  two row-tiled kernels around a host aggregation, against the same layer written in plain array operations.

  At the extended reals the two programs are one function of the arguments. The first kernel's blocks tile
  `X · W` (a change of float format is the identity, and the matrix unit's product into zero is the sum over the
  contracted axis), which is the reference's first product; both programs then apply the same host aggregation to
  it; the second kernel's blocks tile the row-wise read-out of the aggregated array — mean and variance by lane sums
  divided by 64, the normalised row scaled, shifted, clipped at zero, gated by the input row, multiplied by the second
  weight matrix, plus the bias — which is what the reference computes with whole-array operations. Sums are only
  re-indexed, never re-associated across an infinity-sensitive law, so finiteness of the inputs is not used.

  The frames of the two kernel programs are the generated ones; the reference's frame is its generated run with
  the result dropped; the idealization rewrote nothing, so `preserves` is trivial.
-/
import proofs.«103091_j3324304687692_1_alg».proof.Defs
import proofs.«103091_j3324304687692_1_alg».proof.Proof.Gen.Kernel
import proofs.«103091_j3324304687692_1_alg».proof.Proof.Gen.Kernel.Skeleton
import proofs.«103091_j3324304687692_1_alg».proof.Proof.Gen.Kernel.Launch
import proofs.«103091_j3324304687692_1_alg».proof.Proof.Gen.Kernel.Points
import proofs.«103091_j3324304687692_1_alg».proof.Proof.Gen.Kernel.Frame
import proofs.«103091_j3324304687692_1_alg».proof.Proof.Gen.KernelIdeal
import proofs.«103091_j3324304687692_1_alg».proof.Proof.Gen.KernelIdeal.Skeleton
import proofs.«103091_j3324304687692_1_alg».proof.Proof.Gen.KernelIdeal.Launch
import proofs.«103091_j3324304687692_1_alg».proof.Proof.Gen.KernelIdeal.Points
import proofs.«103091_j3324304687692_1_alg».proof.Proof.Gen.KernelIdeal.Frame
import proofs.«103091_j3324304687692_1_alg».proof.Proof.Gen.ReferenceIdeal
import proofs.«103091_j3324304687692_1_alg».proof.Proof.Gen.Pre_finite_inputs
import proofs.«103091_j3324304687692_1_alg».proof.Proof.Gen.ReferenceIdeal.Run
import proofs.«103091_j3324304687692_1_alg».proof.Proof.Gen.ReferenceIdeal.Read
import proofs.«103091_j3324304687692_1_alg».proof.Proof.KernelRun
import proofs.«103091_j3324304687692_1_alg».proof.Proof.RegionOut
import proofs.«103091_j3324304687692_1_alg».proof.Proof.HostSide
import proofs.«103091_j3324304687692_1_alg».proof.Proof.RefTail
import proofs.«103091_j3324304687692_1_alg».proof.Proof.Aggregate
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.GcnLayer

/-- The layer's output as a function of the eight argument arrays: the read-out of the aggregated array (the
    reference's own aggregation of `X · W`) against the input features. -/
abbrev layer (x0 : Cert.ReferenceIdeal.S100000x64.Idx → EReal) (x1 : Cert.ReferenceIdeal.S2x800000.Idx → BitVec 32)
    (x2 : Cert.ReferenceIdeal.S64x64.Idx → EReal) (x3 x4 x5 : Cert.ReferenceIdeal.S64.Idx → EReal)
    (x6 : Cert.ReferenceIdeal.S64x64.Idx → EReal) (x7 : Cert.ReferenceIdeal.S64.Idx → EReal) :
    Cert.ReferenceIdeal.S100000x64.Idx → EReal :=
  out (Cert.ReferenceIdeal.Read.val_main_v43 (F := Ideal) x0 x1 x2 x3) x0 (fun j => x4 (ix1 j)) (fun j => x5 (ix1 j)) x6
    (fun j => x7 (ix1 j))

section KernelSide

open Cert.KernelIdeal Cert.KernelIdeal.Gen

variable (m : (ℓ : Loc nD τ sig) → Buf (Elt Ideal) ℓ) (ρ : Dev nD → PrngReg)

/-- What the idealized kernel leaves in its result array: the layer's output of the arguments as launched. -/
theorem kernel_result (c : Dev nD) :
    W4 m ρ c (Proc.devRef .tc main_v47)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Cert.KernelIdeal.Result.result_contents, Cert.KernelIdeal.RegionOut.final]
  -- the three rows the region finds are the `1 × 64` views of the scale, the shift and the second bias
  have hs : (fun j : Fin 64 => (V3 m ρ c main_v44 : S1x64.Idx → EReal) (ix2 (0 : Fin 1) j))
      = fun j : Fin 64 => (m ((c : Thread nD τ).loc main_arg4) : S64.Idx → EReal) (ix1 j) :=
    funext fun j => Cert.KernelIdeal.HostSide.V3_scale m ρ c j
  have hb : (fun j : Fin 64 => (V3 m ρ c main_v45 : S1x64.Idx → EReal) (ix2 (0 : Fin 1) j))
      = fun j : Fin 64 => (m ((c : Thread nD τ).loc main_arg5) : S64.Idx → EReal) (ix1 j) :=
    funext fun j => Cert.KernelIdeal.HostSide.V3_shift m ρ c j
  have hf : (fun j : Fin 64 => (V3 m ρ c main_v46 : S1x64.Idx → EReal) (ix2 (0 : Fin 1) j))
      = fun j : Fin 64 => (m ((c : Thread nD τ).loc main_arg7) : S64.Idx → EReal) (ix1 j) :=
    funext fun j => Cert.KernelIdeal.HostSide.V3_bias m ρ c j
  show out (V3 m ρ c main_v43) (V3 m ρ c main_arg0)
      (fun j : Fin 64 => (V3 m ρ c main_v44 : S1x64.Idx → EReal) (ix2 (0 : Fin 1) j))
      (fun j : Fin 64 => (V3 m ρ c main_v45 : S1x64.Idx → EReal) (ix2 (0 : Fin 1) j)) (V3 m ρ c main_arg6)
      (fun j : Fin 64 => (V3 m ρ c main_v46 : S1x64.Idx → EReal) (ix2 (0 : Fin 1) j)) = _
  rw [hs, hb, hf, Cert.Proof.Aggregate.agg_eq, Cert.KernelIdeal.HostSide.V3_arg0, Cert.KernelIdeal.HostSide.V3_arg6]

end KernelSide

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer's output of the arguments in their result arrays. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_result m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v73_eq, Cert.ReferenceIdeal.Tail.readout, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
